-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x200x128 : Shape := ⟨3, ![4096, 200, 128]⟩
abbrev S4096x200 : Shape := ⟨2, ![4096, 200]⟩
abbrev S_ : Shape := ⟨0, ![]⟩

class Facts : Prop where
  bcast_S_S4096x200x128 : S_.BroadcastsInDim S4096x200x128 (![] : Fin 0 → Fin S4096x200x128.rank)
  reducesTo_S4096x200x128_S_d0_1_2 : S4096x200x128.ReducesTo [0, 1, 2] S_
  h_S_ : 0 < S_.numel

variable [Facts]

def fn {F : FTy → Type} [FloatOps F] (main_arg0 : FVec F S4096x200x128 .f32) (main_arg1 : IVec S4096x200 1) : IVec S_ 1 :=
  let main_v0 : FVec F S4096x200x128 .f32 := Host.absf main_arg0
  let main_cst : FVec F S_ .f32 := constant S_ .f32 0x7F800000#32
  let main_v1 : FVec F S4096x200x128 .f32 := broadcastInDim S4096x200x128 ![] bcast_S_S4096x200x128 main_cst
  let main_v2 : IVec S4096x200x128 1 := cmpf .olt main_v0 main_v1
  let main_c : IVec S_ 1 := constantI S_ 1 1#1
  let main_v3 : IVec S_ 1 := (fun x v => Host.reduce IntOp.andi x v reducesTo_S4096x200x128_S_d0_1_2 h_S_) main_v2 main_c
  main_v3
-- ==== Kernel.lean ====
abbrev S4096x200x128 : Shape := ⟨3, ![4096, 200, 128]⟩
abbrev S4096x200 : Shape := ⟨2, ![4096, 200]⟩
abbrev S32x200 : Shape := ⟨2, ![32, 200]⟩
abbrev S32x200x128 : Shape := ⟨3, ![32, 200, 128]⟩
abbrev S32x200x1 : Shape := ⟨3, ![32, 200, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x200x128, .f32⟩
  | .hbm, ⟨1, _⟩ => ⟨S4096x200, .i1⟩
  | .hbm, ⟨2, _⟩ => ⟨S4096x200, .i32⟩
  | .hbm, ⟨3, _⟩ => ⟨S4096x200x128, .f32⟩
  | .local _ .vmem, ⟨0, _⟩ => ⟨S32x200, .i32⟩
  | .local _ .vmem, ⟨1, _⟩ => ⟨S32x200, .i32⟩
  | .local _ .vmem, ⟨2, _⟩ => ⟨S32x200x128, .f32⟩
  | .local _ .vmem, ⟨3, _⟩ => ⟨S32x200x128, .f32⟩
  | .local _ .vmem, ⟨4, _⟩ => ⟨S32x200x128, .f32⟩
  | .local _ .vmem, ⟨5, _⟩ => ⟨S32x200x128, .f32⟩
  | _, _ => ⟨S4096x200x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x200 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  natLt_1_32 : 1 < 32
  inb_S32x200_S32x200_0_0 : ∀ a, (![0, 0] : Fin 2 → Nat) a + S32x200.size a ≤ S32x200.size a
  h_S32x200 : 0 < S32x200.numel
  inb_S32x200x128_S32x200x128_0_0_0 : ∀ a, (![0, 0, 0] : Fin 3 → Nat) a + S32x200x128.size a ≤ S32x200x128.size a
  h_S32x200x128 : 0 < S32x200x128.numel
  shapeCasts_S32x200_S32x200x1 : S32x200.ShapeCasts S32x200x1
  broadcasts_S32x200x1_S32x200x128 : S32x200x1.Broadcasts S32x200x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x200.size a ≤ S4096x200.size a
  hwx0_0 : ∀ i : grid0.Coords, EltTy.bits .i32 = 32 ∨ (Rect.block (s := S4096x200) S32x200.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x200x128.size a ≤ S4096x200x128.size a
  hwx0_1 : ∀ i : grid0.Coords, EltTy.bits .f32 = 32 ∨ (Rect.block (s := S4096x200x128) S32x200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x200x128.size a ≤ S4096x200x128.size a
  hwx0_2 : ∀ i : grid0.Coords, EltTy.bits .f32 = 32 ∨ (Rect.block (s := S4096x200x128) S32x200x128.size (cc0_transform_2 i) (hinb0_2 i)).WholeWords (EltTy.packing .f32)

variable [Facts₀]

abbrev win0_0 : Pipeline.Window sig grid0 :=
  Pipeline.Window.ofSpec (Memref.whole main_v0) S32x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S32x200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x200x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x200x128 : Shape := ⟨3, ![4096, 200, 128]⟩
abbrev S4096x200 : Shape := ⟨2, ![4096, 200]⟩
abbrev S4096x200x1 : Shape := ⟨3, ![4096, 200, 1]⟩
abbrev S4096x200x1x128 : Shape := ⟨4, ![4096, 200, 1, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x200x128, .f32⟩
  | .hbm, ⟨1, _⟩ => ⟨S4096x200, .i1⟩
  | .hbm, ⟨2, _⟩ => ⟨S4096x200x1, .i1⟩
  | .hbm, ⟨3, _⟩ => ⟨S4096x200x1x128, .i1⟩
  | .hbm, ⟨4, _⟩ => ⟨S4096x200x128, .i1⟩
  | .hbm, ⟨5, _⟩ => ⟨S_, .f32⟩
  | .hbm, ⟨6, _⟩ => ⟨S4096x200x128, .f32⟩
  | .hbm, ⟨7, _⟩ => ⟨S4096x200x128, .f32⟩
  | _, _ => ⟨S4096x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  bcast_S4096x200_S4096x200x1_0_1 : S4096x200.BroadcastsInDim S4096x200x1 (![0, 1] : Fin 2 → Fin S4096x200x1.rank)
  bcast_S4096x200x1_S4096x200x1x128_0_1_2 : S4096x200x1.BroadcastsInDim S4096x200x1x128 (![0, 1, 2] : Fin 3 → Fin S4096x200x1x128.rank)
  shapeCasts_S4096x200x1x128_S4096x200x128 : S4096x200x1x128.ShapeCasts S4096x200x128
  bcast_S_S4096x200x128 : S_.BroadcastsInDim S4096x200x128 (![] : Fin 0 → Fin S4096x200x128.rank)

variable [Facts₀]

class Facts : Prop extends Facts₀ where

variable [Facts]
-- ==== Proof.MaskedFill.lean ====
/-
  Masked fill, the mathematics both programs compute.

  For a tensor `x` of shape [4096, 200, 128] over the extended reals and a mask `b` of bits of shape [4096, 200], the
  result is

      filled x b (i, j, k) = 0            if b (i, j) = 1
                             x (i, j, k)  if b (i, j) = 0.

  One program selects between the constant zero and `x` on the bit. The other widens the bit to a 32-bit word `w`,
  tests `w ≠ 0`, converts that truth value to the number 0 or 1, and multiplies `x` by `1 - [w ≠ 0]`. The two agree
  entry by entry by one law of the extended reals: `x * 0 = 0` and `x * 1 = x` for EVERY extended real `x` — with the
  convention `±∞ * 0 = 0` no finiteness of `x` is used.
-/
import Idealize.ShloMosaic.PureOps.Ideal
import Idealize.ShloMosaic.PureOps.Ideal.Laws
import Idealize.ShloMosaic.Lib.IdealHost
import Idealize.ShloMosaic.Lib.ValueIdx

noncomputable section

namespace Cert.MaskedFill

open Idealize.ShloMosaic Idealize.ShloMosaic.ValueIdx

/-- The tensor's shape and the mask's. -/
abbrev Tens : Shape := ⟨3, ![4096, 200, 128]⟩
abbrev Msk : Shape := ⟨2, ![4096, 200]⟩

/-- The masked fill: zero where the mask's bit over the first two coordinates is set, the tensor's entry elsewhere. -/
def filled (x : Tens.Idx → EReal) (b : Msk.Idx → BitVec 1) : Tens.Idx → EReal :=
  fun i => Scalar.select (b (ix2 (i 0) (i 1))) (0 : EReal) (x i)

/-- The truth value of `w ≠ 0` for the widened bit `w`, widened again and read as a signed integer, is the bit itself
    read as a number: 0 for the bit 0, 1 for the bit 1. -/
theorem toInt_ne_zero_widened : ∀ b : BitVec 1,
    ((IntOp.cmpi .ne (b.setWidth 32) (0#32 : BitVec 32)).setWidth 32).toInt = (b.toNat : ℤ) := by decide

/-- THE LAW: multiplying by `1 - [w ≠ 0]`, `w` the widened bit, is selecting zero on the bit. On the bit 1 the factor is
    `1 - 1 = 0` and `x * 0 = 0`; on the bit 0 it is `1 - 0 = 1` and `x * 1 = x`; both hold at the infinities too. -/
theorem mul_keep_eq_select (x : EReal) (b : BitVec 1) :
    x * ((1 : EReal) - ((((IntOp.cmpi .ne (b.setWidth 32) (0#32 : BitVec 32)).setWidth 32).toInt : ℝ) : EReal))
      = Scalar.select b (0 : EReal) x := by
  rw [toInt_ne_zero_widened]
  rcases BitVec.eq_zero_or_eq_one b with rfl | rfl
  · rw [select_zero]
    show x * ((1 : EReal) - (((0 : ℤ) : ℝ) : EReal)) = x
    rw [Int.cast_zero, EReal.coe_zero, sub_zero, mul_one]
  · rw [select_one]
    show x * ((1 : EReal) - (((1 : ℤ) : ℝ) : EReal)) = 0
    rw [Int.cast_one, EReal.coe_one, ← EReal.coe_one, ← EReal.coe_sub, sub_self, EReal.coe_zero, mul_zero]

end Cert.MaskedFill

end
-- ==== Proof.RefFill.lean ====
/-
  The reference is the masked fill.

  The reference stretches the mask [4096, 200] along a new last axis — [4096, 200] to [4096, 200, 1] to
  [4096, 200, 1, 128], re-bracketed as [4096, 200, 128] — and selects, entry by entry, the constant zero where the
  stretched bit is set and the tensor's entry elsewhere. Read at (i, j, k) the stretched mask is the mask at (i, j): the
  flat position ((i·200 + j)·128 + k) of the re-bracketing has quotient i by 25600 and (quotient by 128) mod 200 equal
  to j, because j < 200 and k < 128.
-/
import proofs.«128417_g57140244906507_cont_9to1_m_256_3_alg».proof.Proof.Gen.ReferenceIdeal.Read
import proofs.«128417_g57140244906507_cont_9to1_m_256_3_alg».proof.Proof.MaskedFill

noncomputable section

namespace Cert.ReferenceIdeal.FillValue

open Cert.ReferenceIdeal Cert.ReferenceIdeal.Read Idealize.ShloMosaic Idealize.ShloMosaic.ValueIdx Cert.MaskedFill

/-- Through the two stretches and the re-bracketing, position (i, j, k) of the stretched mask reads the mask at (i, j). -/
theorem mask_index (i : S4096x200x128.Idx) : idx_main_v0 (idx_main_v1 (idx_main_v2 i)) = ix2 (i 0) (i 1) := by
  have h0 : (i 0).val < 4096 := (i 0).isLt
  have h1 : (i 1).val < 200 := (i 1).isLt
  have h2 : (i 2).val < 128 := (i 2).isLt
  funext a
  match a with
  | ⟨0, _⟩ => exact Fin.ext (show (((i 0).val * 200 + (i 1).val) * 128 + (i 2).val) / 25600 = (i 0).val by omega)
  | ⟨1, _⟩ => exact Fin.ext (show (((i 0).val * 200 + (i 1).val) * 128 + (i 2).val) / 128 % 200 = (i 1).val by omega)

/-- The reference's result, as a function of the tensor and the mask, is the masked fill. -/
theorem result_eq (x : S4096x200x128.Idx → EReal) (b : S4096x200.Idx → BitVec 1) :
    val_main_v3 (F := Ideal) x b = filled x b := by
  funext i
  rw [val_main_v3_apply, val_main_v2_apply, val_main_v1_apply, val_main_v0_apply, val_main_call0_v0_apply,
    val_main_cst_apply, mask_index]
  show Scalar.select (b (ix2 (i 0) (i 1))) (Ideal.ofBits .f32 0x00000000#32) (x i) = Scalar.select (b (ix2 (i 0) (i 1))) (0 : EReal) (x i)
  rw [Ideal.ofBits_zero_f32]

end Cert.ReferenceIdeal.FillValue

end
-- ==== Proof.LibStack.lean ====
/-
  A three-axis stack [a,b,c] met by matrices: a matrix [a,b] given a trailing unit axis and stretched along it, one
  entry of a matrix or of a vector picked out as a scalar (a 1×1 or 1-long slab read at its only position), and the
  stack summed along its first or its last axis — each read at an index written by coordinates.
-/
import Idealize.ShloMosaic.Lib.Pipeline.Value
import Idealize.ShloMosaic.Lib.ValueIdx
import Idealize.ShloMosaic.Lib.ValueLayout
import Idealize.ShloMosaic.PureOps.Ideal.Laws

namespace Cert.LibStack

open Idealize.ShloMosaic Idealize.ShloMosaic.ValueIdx

variable {α : Type}

/-- [a,b] viewed [a,b,1]: at (i, j, u) the matrix at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- [a,b,1] stretched to [a,b,c]: at (i, j, k) the column at (i, j, 0). -/
theorem broadcastTo_ab1_abc_apply {a b c : ℕ} (U : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ U h (ix3 i j k) = U (ix3 i j (0 : Fin 1)) := by
  refine broadcastTo_apply U h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The 1×1 slab of a matrix at offset (p, q), read at its only position: the matrix at (p, q). -/
theorem pick2 {n0 n1 : ℕ} (p q : ℕ) (X : (⟨2, ![n0, n1]⟩ : Shape).Idx → α)
    (h : (⟨2, ![n0, n1]⟩ : Shape).Slices ![p, q] ⟨2, ![1, 1]⟩)
    (h' : ∀ a, (![0, 0] : Fin 2 → ℕ) a < (⟨2, ![1, 1]⟩ : Shape).size a) :
    extractAt ![0, 0] (extractStridedSlice ⟨2, ![1, 1]⟩ ![p, q] X h) h'
      = X (ix2 ⟨p, Nat.lt_of_lt_of_le (Nat.lt_succ_self p) (h.2 0)⟩ ⟨q, Nat.lt_of_lt_of_le (Nat.lt_succ_self q) (h.2 1)⟩) := by
  show X _ = X _
  refine congrArg X (funext fun a => Fin.ext ?_)
  match a with
  | ⟨0, _⟩ => exact Nat.add_zero p
  | ⟨1, _⟩ => exact Nat.add_zero q

/-- The 1-long slab of a vector at offset p, read at its only position: the vector at p. -/
theorem pick1 {n0 : ℕ} (p : ℕ) (X : (⟨1, ![n0]⟩ : Shape).Idx → α)
    (h : (⟨1, ![n0]⟩ : Shape).Slices ![p] ⟨1, ![1]⟩)
    (h' : ∀ a, (![0] : Fin 1 → ℕ) a < (⟨1, ![1]⟩ : Shape).size a) :
    extractAt ![0] (extractStridedSlice ⟨1, ![1]⟩ ![p] X h) h'
      = X (ix1 ⟨p, Nat.lt_of_lt_of_le (Nat.lt_succ_self p) (h.2 0)⟩) := by
  show X _ = X _
  refine congrArg X (funext fun a => Fin.ext ?_)
  match a with
  | ⟨0, _⟩ => exact Nat.add_zero p

/-- The stack summed along its LAST axis, from the additive neutral: at (i, j) the sum over k of the entries (i, j, k). -/
theorem sum_last_apply {a b c : ℕ} (src : FVec Ideal ⟨3, ![a, b, c]⟩ .f32) (acc : BitVec FTy.f32.bits)
    (h : (⟨3, ![a, b, c]⟩ : Shape).Reduces [2] ⟨2, ![a, b]⟩) (hφ : FKind.Formats .f32)
    (hacc : acc = FKind.add.neutral .f32 hφ) (i : Fin a) (j : Fin b) :
    multiReduction .add [2] ⟨2, ![a, b]⟩ src acc h hφ hacc (ix2 i j) = ∑ k : Fin c, src (ix3 i j k) := by
  rw [Ideal.multiReduction_add_single]
  refine Finset.sum_congr rfl fun k _ => ?_
  exact congrArg src (funext fun ax => Fin.ext (by match ax with | ⟨0, _⟩ => rfl | ⟨1, _⟩ => rfl | ⟨2, _⟩ => rfl))

/-- The stack summed along its FIRST axis, from the additive neutral: at (j, k) the sum over i of the entries (i, j, k). -/
theorem sum_first_apply {a b c : ℕ} (src : FVec Ideal ⟨3, ![a, b, c]⟩ .f32) (acc : BitVec FTy.f32.bits)
    (h : (⟨3, ![a, b, c]⟩ : Shape).Reduces [0] ⟨2, ![b, c]⟩) (hφ : FKind.Formats .f32)
    (hacc : acc = FKind.add.neutral .f32 hφ) (j : Fin b) (k : Fin c) :
    multiReduction .add [0] ⟨2, ![b, c]⟩ src acc h hφ hacc (ix2 j k) = ∑ i : Fin a, src (ix3 i j k) := by
  rw [Ideal.multiReduction_add_single]
  refine Finset.sum_congr rfl fun i _ => ?_
  exact congrArg src (funext fun ax => Fin.ext (by match ax with | ⟨0, _⟩ => rfl | ⟨1, _⟩ => rfl | ⟨2, _⟩ => rfl))

end Cert.LibStack
-- ==== Proof.BlockFill.lean ====
/-
  One block of the kernel's result.

  At a grid point the body holds a block `w` of 32 × 200 words (the mask's bits, each widened to 32 bits) and a block
  `xb` of 32 × 200 × 128 entries of the tensor. It forms, per row (p, q), the factor 1 - [w (p, q) ≠ 0] — the test's
  truth value converted to the number 0 or 1 and subtracted from 1 —, gives that 32 × 200 table a last axis of length 1,
  stretches it to 128, and multiplies: the block's entry at (p, q, e) is xb (p, q, e) · (1 - [w (p, q) ≠ 0]). When the
  word at (p, q) is a widened bit `b`, that is "zero if b is set, else xb (p, q, e)".
-/
import proofs.«128417_g57140244906507_cont_9to1_m_256_3_alg».proof.Proof.Gen.KernelIdeal.Skeleton
import proofs.«128417_g57140244906507_cont_9to1_m_256_3_alg».proof.Proof.MaskedFill
import proofs.«128417_g57140244906507_cont_9to1_m_256_3_alg».proof.Proof.LibStack

noncomputable section

namespace Cert.KernelIdeal.BlockValue

open Cert.KernelIdeal Cert.KernelIdeal.Gen Idealize.ShloMosaic Idealize.ShloMosaic.ValueIdx Cert.MaskedFill Cert.LibStack

/-- The block's entry at (p, q, e), when the word at (p, q) is the widened bit `b`: zero if `b` is set, the tensor
    block's entry otherwise. The stretched factor is read back to row (p, q) through the unit axis; the rest is the law
    `x * (1 - [w ≠ 0]) = select b 0 x`. -/
theorem pay_apply (w : Vec Ideal S32x200 .i32) (xb : Vec Ideal S32x200x128 .f32) (b : BitVec 1)
    (p : Fin 32) (q : Fin 200) (e : Fin 128) (hw : w (ix2 p q) = b.setWidth 32) :
    k0_pay1 (F := Ideal) w xb (ix3 p q e) = Scalar.select b (0 : EReal) (xb (ix3 p q e)) := by
  unfold k0_pay1
  show (xb (ix3 p q e) : EReal)
      * (broadcastTo S32x200x128 (shapeCast S32x200x1 (subf (F := Ideal) (broadcast S32x200 (Scalar.ofBits (F := Ideal) .f32 0x3F800000#32))
          (sitofp (F := Ideal) .f32 (extui 32 (cmpi .ne w (constantI S32x200 32 0#32)) natLt_1_32))) shapeCasts_S32x200_S32x200x1)
          broadcasts_S32x200x1_S32x200x128) (ix3 p q e) = _
  rw [broadcastTo_ab1_abc_apply, shapeCast_ab_ab1_apply]
  show (xb (ix3 p q e) : EReal)
      * (Ideal.ofBits .f32 0x3F800000#32 - ((((IntOp.cmpi .ne (w (ix2 p q)) (0#32 : BitVec 32)).setWidth 32).toInt : ℝ) : EReal)) = _
  rw [Ideal.ofBits_one_f32, hw, mul_keep_eq_select]

end Cert.KernelIdeal.BlockValue

end
-- ==== Proof.KernelFill.lean ====
/-
  From the kernel's blocks to its whole result array.

  The grid has 128 points. At point t the three windows hold rows 32·t … 32·t + 31 of their arrays: 32 × 200 words of
  the widened mask, and 32 × 200 × 128 entries of the tensor and of the result. The widened mask is written by the
  host before the launch: each bit of the mask as a 32-bit word. So the block the body leaves at point t is block t of
  ONE function of the two argument arrays — the masked fill `filled x b` — and, since the 128 blocks of 32 rows tile the
  4096 rows, the result array ends holding `filled x b` everywhere.
-/
import proofs.«128417_g57140244906507_cont_9to1_m_256_3_alg».proof.Proof.Gen.KernelIdeal.Frame
import proofs.«128417_g57140244906507_cont_9to1_m_256_3_alg».proof.Proof.BlockFill
import Idealize.ShloMosaic.Lib.Pipeline.Value
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Cert.MaskedFill Cert.KernelIdeal.BlockValue
open Idealize.ShloMosaic.Pipeline (Dat)

variable (m : (ℓ : Loc nD τ sig) → Buf (Elt Ideal) ℓ) (ρ : Dev nD → PrngReg)

/-- The body's loads and its store start at the origin of their buffers. -/
theorem origin2 : (![0, 0] : Fin 2 → Nat) = fun _ => 0 := funext fun a => by fin_cases a <;> rfl
theorem origin3 : (![0, 0, 0] : Fin 3 → Nat) = fun _ => 0 := funext fun a => by fin_cases a <;> rfl

/-- What the launch finds in the widened-mask array: the host has written each bit of the mask as a 32-bit word. -/
theorem widened_mask (c : Dev nD) :
    (V m c main_v0 : S4096x200.Idx → BitVec 32) = extui 32 (m ((c : Thread nD τ).loc main_arg1)) natLt_1_32 := by
  dsimp only [Gen.V, Gen.hostOps0]; after_results

/-- The three index maps over the 128 points, decided: every window is at block row t, block column(s) 0. -/
theorem index_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- WHAT POINT t WRITES BACK is block t of the masked fill of the two argument arrays. -/
theorem flushed_eq (c : Dev nD) (t : Fin cfg0.N) :
    (dats m 0 c).flushed 2 t = ((cfg0.win 2).blk t).view.read (Elt Ideal)
      (filled (m ((c : Thread nD τ).loc main_arg0)) (m ((c : Thread nD τ).loc main_arg1))) := by
  show (cfg0.win 2).cut (grid0.coords t) ((dats m 0 c).after 2 t) = _
  rw [after0_2]
  unfold out0_2
  rw [View.canon_unit_zero origin3]
  simp only [View.ld_unit_zero (S := S32x200x128) origin3, View.ld_unit_zero (S := S32x200) origin2]
  obtain ⟨a0, a1, b0, b1, b2, c0, c1, c2⟩ := index_facts t
  funext j
  obtain ⟨p, q, e, rfl⟩ : ∃ (p : Fin 32) (q : Fin 200) (e : Fin 128), j = ix3 p q e := ⟨j 0, j 1, j 2, eq_ix3 j⟩
  show k0_pay1 (F := Ideal) (iblk m c 0 t) (iblk m c 1 t) (ix3 p q e)
    = filled (m ((c : Thread nD τ).loc main_arg0)) (m ((c : Thread nD τ).loc main_arg1)) (((cfg0.win 2).blk t).view.emb (ix3 p q e))
  -- the word at row (p, q) of the block is the mask's bit at array row (32·t + p, q), widened
  have hw : iblk m c 0 t (ix2 p q)
      = (m ((c : Thread nD τ).loc main_arg1) (ix2 ((((cfg0.win 2).blk t).view.emb (ix3 p q e)) 0) ((((cfg0.win 2).blk t).view.emb (ix3 p q e)) 1))).setWidth 32 := by
    show (V m c main_v0 : S4096x200.Idx → BitVec 32) (((cfg0.win 0).blk t).view.emb (ix2 p q)) = _
    rw [widened_mask]
    show (m ((c : Thread nD τ).loc main_arg1) (((cfg0.win 0).blk t).view.emb (ix2 p q))).setWidth 32 = _
    congr 2
    funext a
    match a with
    | ⟨0, _⟩ => exact Fin.ext (show win0_0.index t (0 : Fin 2) * 32 + 1 * p.val = win0_2.index t (0 : Fin 3) * 32 + 1 * p.val by omega)
    | ⟨1, _⟩ => exact Fin.ext (show win0_0.index t (1 : Fin 2) * 200 + 1 * q.val = win0_2.index t (1 : Fin 3) * 200 + 1 * q.val by omega)
  -- the tensor block's entry is the tensor at the same array index as the result's entry
  have hx : iblk m c 1 t (ix3 p q e) = m ((c : Thread nD τ).loc main_arg0) (((cfg0.win 2).blk t).view.emb (ix3 p q e)) := by
    show V m c main_arg0 (((cfg0.win 1).blk t).view.emb (ix3 p q e)) = _
    rw [V_main_arg0]
    -- the tensor's window and the result's have the same index map and the same block shape
    congr 1
  refine (pay_apply (iblk m c 0 t) (iblk m c 1 t) _ p q e hw).trans ?_
  rw [hx]
  rfl

/-- An index of the result array is in point t's block iff each coordinate is in the block's range on its axis. -/
theorem mem_blk (t : Fin cfg0.N) (i : S4096x200x128.Idx) :
    i ∈ ((cfg0.win 2).blk t).view.set ↔ ∀ a : Fin 3, win0_2.index t a * S32x200x128.size a ≤ (i a).val
      ∧ (i a).val < win0_2.index t a * S32x200x128.size a + S32x200x128.size a := by
  show i ∈ ((View.whole main_v1).slice (win0_2.rect t)).set ↔ _
  rw [View.set_slice_whole, Rect.mem_set_unit]
  exact Iff.rfl

/-- THE BLOCKS TILE THE ARRAY: index (r, j, k) lies in the block of point r / 32. -/
theorem cover (i : S4096x200x128.Idx) :
    ∃ t : Fin cfg0.N, (cfg0.win 2).flush t = true ∧ i ∈ ((cfg0.win 2).blk t).view.set := by
  have h0 : (i 0).val < 4096 := (i 0).isLt
  have h1 : (i 1).val < 200 := (i 1).isLt
  have h2 : (i 2).val < 128 := (i 2).isLt
  have hN : (i 0).val / 32 < cfg0.N := by show _ < grid0.N; rw [N_0]; omega
  obtain ⟨a0, a1, b0, b1, b2, c0, c1, c2⟩ := index_facts ⟨(i 0).val / 32, hN⟩
  have c0' : win0_2.index ⟨(i 0).val / 32, hN⟩ (0 : Fin 3) = (i 0).val / 32 := c0
  refine ⟨⟨(i 0).val / 32, hN⟩, flush0_2 _, ?_⟩
  rw [mem_blk]
  intro a
  match a with
  | ⟨0, _⟩ => show win0_2.index ⟨(i 0).val / 32, hN⟩ (0 : Fin 3) * 32 ≤ (i 0).val ∧ (i 0).val < win0_2.index ⟨(i 0).val / 32, hN⟩ (0 : Fin 3) * 32 + 32; omega
  | ⟨1, _⟩ => show win0_2.index ⟨(i 0).val / 32, hN⟩ (1 : Fin 3) * 200 ≤ (i 1).val ∧ (i 1).val < win0_2.index ⟨(i 0).val / 32, hN⟩ (1 : Fin 3) * 200 + 200; omega
  | ⟨2, _⟩ => show win0_2.index ⟨(i 0).val / 32, hN⟩ (2 : Fin 3) * 128 ≤ (i 2).val ∧ (i 2).val < win0_2.index ⟨(i 0).val / 32, hN⟩ (2 : Fin 3) * 128 + 128; omega

/-- THE RESULT ARRAY after the run is the masked fill of the two argument arrays. -/
theorem final (c : Dev nD) :
    (dats m 0 c).arrAt 2 cfg0.N = filled (m ((c : Thread nD τ).loc main_arg0)) (m ((c : Thread nD τ).loc main_arg1)) :=
  (dats m 0 c).arrAt_eq_of_cover 2 _ (fun t _ => flushed_eq m c t) cover

/-- The kernel's run: every weakly fair execution terminates, the result array at the masked fill of the arguments, the
    arguments unchanged. -/
theorem run : θ_run defs (onTc (τ := τ) (main (F := Ideal))) ⟨m, fun _ => 0, ρ⟩ fun r => ∀ c : Dev nD,
      r.2.mem ((c : Thread nD τ).loc main_v1) = filled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 1).trans (((dats m 0 c).arrAt_in 1 rfl _).trans ((A_eq m c 1).trans (V_main_arg0 m c))),
      ((h c).2 main_arg1 (Pipeline.mem_restRefs_of main_arg1 (by decide) (by decide))).trans (V_main_arg1 m c)⟩)
    (run_main m ρ)

end Cert.KernelIdeal.ArrayValue

end
-- ==== Proof.lean ====
/-
  Masked fill: a Pallas kernel against `jnp.where`, equal over the extended reals.

  Inputs: a tensor x of shape [4096, 200, 128] and a mask b of bits of shape [4096, 200]. Both programs return

      out (i, j, k) = 0            if b (i, j) is set
                      x (i, j, k)  otherwise.

  The reference stretches the mask along a new last axis and selects between the constant 0 and x. The kernel has the
  host widen each bit to a 32-bit word, and then, on a grid of 128 points each holding 32 rows of the first axis,
  computes x · (1 - [word ≠ 0]), the test's truth value converted to the number 0 or 1. At the extended reals the
  factor is exactly 0 or 1 and `x · 0 = 0`, `x · 1 = x` hold for every x, infinite ones included, so the two results are
  one function of the inputs (Proof/MaskedFill.lean); the precondition that the tensor is finite is not used.

  The pieces: the reference's result read at an index is that function (Proof/RefFill.lean, over the generated run of
  the reference and its read-at-an-index lemmas); the block the kernel's body leaves at a grid point, read at an index
  (Proof/BlockFill.lean); the 128 blocks are the blocks of that one function and tile the result array
  (Proof/KernelFill.lean, over the generated frame run). The three frame claims are the generated frames (the
  reference's is its generated run with the result forgotten), and the idealized kernel is the kernel's own text read
  at the extended reals: nothing was rewritten, so that claim is `True`.
-/
import proofs.«128417_g57140244906507_cont_9to1_m_256_3_alg».proof.Defs
import proofs.«128417_g57140244906507_cont_9to1_m_256_3_alg».proof.Proof.Gen.Kernel
import proofs.«128417_g57140244906507_cont_9to1_m_256_3_alg».proof.Proof.Gen.Kernel.Skeleton
import proofs.«128417_g57140244906507_cont_9to1_m_256_3_alg».proof.Proof.Gen.Kernel.Launch
import proofs.«128417_g57140244906507_cont_9to1_m_256_3_alg».proof.Proof.Gen.Kernel.Points
import proofs.«128417_g57140244906507_cont_9to1_m_256_3_alg».proof.Proof.Gen.Kernel.Frame
import proofs.«128417_g57140244906507_cont_9to1_m_256_3_alg».proof.Proof.Gen.KernelIdeal
import proofs.«128417_g57140244906507_cont_9to1_m_256_3_alg».proof.Proof.Gen.KernelIdeal.Skeleton
import proofs.«128417_g57140244906507_cont_9to1_m_256_3_alg».proof.Proof.Gen.KernelIdeal.Launch
import proofs.«128417_g57140244906507_cont_9to1_m_256_3_alg».proof.Proof.Gen.KernelIdeal.Points
import proofs.«128417_g57140244906507_cont_9to1_m_256_3_alg».proof.Proof.Gen.KernelIdeal.Frame
import proofs.«128417_g57140244906507_cont_9to1_m_256_3_alg».proof.Proof.Gen.ReferenceIdeal
import proofs.«128417_g57140244906507_cont_9to1_m_256_3_alg».proof.Proof.Gen.Pre_finite_inputs
import proofs.«128417_g57140244906507_cont_9to1_m_256_3_alg».proof.Proof.Gen.ReferenceIdeal.Run
import proofs.«128417_g57140244906507_cont_9to1_m_256_3_alg».proof.Proof.Gen.ReferenceIdeal.Read
import proofs.«128417_g57140244906507_cont_9to1_m_256_3_alg».proof.Proof.RefFill
import proofs.«128417_g57140244906507_cont_9to1_m_256_3_alg».proof.Proof.KernelFill
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading at the extended reals. -/
theorem preserves : Cert.preserves_Kernel_KernelIdeal := trivial

/-- From memories that agree on the tensor and the mask, both programs end with the masked fill of them: the kernel by
    its blocks, the reference by its select. -/
theorem algebraic : Cert.algebraic_KernelIdeal_ReferenceIdeal := by
  intro m ρ m' ρ' _ hagree
  refine ⟨fun c => Cert.MaskedFill.filled (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.FillValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
